-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x32 : Shape := ⟨3, ![4, 50000, 32]⟩
abbrev S800000 : Shape := ⟨1, ![800000]⟩
abbrev S128x32 : Shape := ⟨2, ![128, 32]⟩
abbrev S1x1x32 : Shape := ⟨3, ![1, 1, 32]⟩
abbrev S_ : Shape := ⟨0, ![]⟩

class Facts : Prop where
  bcast_S_S4x50000x32 : S_.BroadcastsInDim S4x50000x32 (![] : Fin 0 → Fin S4x50000x32.rank)
  reducesTo_S4x50000x32_S_d0_1_2 : S4x50000x32.ReducesTo [0, 1, 2] S_
  h_S_ : 0 < S_.numel
  bcast_S_S800000 : S_.BroadcastsInDim S800000 (![] : Fin 0 → Fin S800000.rank)
  reducesTo_S800000_S_d0 : S800000.ReducesTo [0] S_
  bcast_S_S128x32 : S_.BroadcastsInDim S128x32 (![] : Fin 0 → Fin S128x32.rank)
  reducesTo_S128x32_S_d0_1 : S128x32.ReducesTo [0, 1] S_
  bcast_S_S1x1x32 : S_.BroadcastsInDim S1x1x32 (![] : Fin 0 → Fin S1x1x32.rank)
  reducesTo_S1x1x32_S_d0_1_2 : S1x1x32.ReducesTo [0, 1, 2] S_

variable [Facts]

def fn_part1 {F : FTy → Type} [FloatOps F] (main_v13 : IVec S_ 1) (main_v16 : IVec S1x1x32 1) : IVec S_ 1 :=
  let main_c_5 : IVec S_ 1 := constantI S_ 1 1#1
  let main_v17 : IVec S_ 1 := (fun x v => Host.reduce IntOp.andi x v reducesTo_S1x1x32_S_d0_1_2 h_S_) main_v16 main_c_5
  let main_v18 : IVec S_ 1 := andi main_v13 main_v17
  main_v18

def fn {F : FTy → Type} [FloatOps F] (main_arg0 : FVec F S4x50000x32 .f32) (main_arg1 : FVec F S800000 .f32) (main_arg2 : FVec F S128x32 .f32) (main_arg3 : FVec F S1x1x32 .f32) (main_arg4 : IVec S800000 32) (main_arg5 : IVec S800000 32) : IVec S_ 1 :=
  let main_v0 : FVec F S4x50000x32 .f32 := Host.absf main_arg0
  let main_cst : FVec F S_ .f32 := constant S_ .f32 0x7F800000#32
  let main_v1 : FVec F S4x50000x32 .f32 := broadcastInDim S4x50000x32 ![] bcast_S_S4x50000x32 main_cst
  let main_v2 : IVec S4x50000x32 1 := cmpf .olt main_v0 main_v1
  let main_c : IVec S_ 1 := constantI S_ 1 1#1
  let main_v3 : IVec S_ 1 := (fun x v => Host.reduce IntOp.andi x v reducesTo_S4x50000x32_S_d0_1_2 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S1x1x32 .f32 := Host.absf main_arg3
  let main_cst_4 : FVec F S_ .f32 := constant S_ .f32 0x7F800000#32
  let main_v15 : FVec F S1x1x32 .f32 := broadcastInDim S1x1x32 ![] bcast_S_S1x1x32 main_cst_4
  let main_v16 : IVec S1x1x32 1 := cmpf .olt main_v14 main_v15
  fn_part1 (F := F) main_v13 main_v16
-- ==== Kernel.lean ====
abbrev S4x50000x32 : Shape := ⟨3, ![4, 50000, 32]⟩
abbrev S800000 : Shape := ⟨1, ![800000]⟩
abbrev S128x32 : Shape := ⟨2, ![128, 32]⟩
abbrev S1x1x32 : Shape := ⟨3, ![1, 1, 32]⟩
abbrev S50000x32x4 : Shape := ⟨3, ![50000, 32, 4]⟩
abbrev S800000x1x1 : Shape := ⟨3, ![800000, 1, 1]⟩
abbrev S_ : Shape := ⟨0, ![]⟩
abbrev S800000x1 : Shape := ⟨2, ![800000, 1]⟩
abbrev S800000x32x4 : Shape := ⟨3, ![800000, 32, 4]⟩
abbrev S50000x128 : Shape := ⟨2, ![50000, 128]⟩
abbrev S2000x128 : Shape := ⟨2, ![2000, 128]⟩
abbrev S4x2000x32 : Shape := ⟨3, ![4, 2000, 32]⟩
abbrev S2000x32x4 : Shape := ⟨3, ![2000, 32, 4]⟩
abbrev S32 : Shape := ⟨1, ![32]⟩
abbrev S2000x32x1 : Shape := ⟨3, ![2000, 32, 1]⟩
abbrev S2000x32 : Shape := ⟨2, ![2000, 32]⟩
abbrev S1x32 : Shape := ⟨2, ![1, 32]⟩
abbrev S1x2000x32 : Shape := ⟨3, ![1, 2000, 32]⟩

abbrev nBuf : Space → Nat
  | .hbm => 68
  | .vmem => 12
  | .smem => 0
  | _ => 0

abbrev bufTy : (tb : Table) → Fin (tcTables nBuf tb) → BufTy
  | .hbm, ⟨0, _⟩ => ⟨S4x50000x32, .f32⟩
  | .hbm, ⟨1, _⟩ => ⟨S800000, .f32⟩
  | .hbm, ⟨2, _⟩ => ⟨S128x32, .f32⟩
  | .hbm, ⟨3, _⟩ => ⟨S1x1x32, .f32⟩
  | .hbm, ⟨4, _⟩ => ⟨S800000, .i32⟩
  | .hbm, ⟨5, _⟩ => ⟨S800000, .i32⟩
  | .hbm, ⟨6, _⟩ => ⟨S50000x32x4, .f32⟩
  | .hbm, ⟨7, _⟩ => ⟨S800000x1x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x32x4, .f32⟩
  | .hbm, ⟨17, _⟩ => ⟨S800000x32x4, .f32⟩
  | .hbm, ⟨18, _⟩ => ⟨S800000x32x4, .f32⟩
  | .hbm, ⟨19, _⟩ => ⟨S_, .f32⟩
  | .hbm, ⟨20, _⟩ => ⟨S50000x32x4, .f32⟩
  | .hbm, ⟨21, _⟩ => ⟨S800000x1, .i32⟩
  | .hbm, ⟨22, _⟩ => ⟨S50000x32x4, .f32⟩
  | .hbm, ⟨23, _⟩ => ⟨S800000x1x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x32x4, .f32⟩
  | .hbm, ⟨33, _⟩ => ⟨S800000x32x4, .f32⟩
  | .hbm, ⟨34, _⟩ => ⟨S800000x32x4, .f32⟩
  | .hbm, ⟨35, _⟩ => ⟨S_, .f32⟩
  | .hbm, ⟨36, _⟩ => ⟨S50000x32x4, .f32⟩
  | .hbm, ⟨37, _⟩ => ⟨S800000x1, .i32⟩
  | .hbm, ⟨38, _⟩ => ⟨S50000x32x4, .f32⟩
  | .hbm, ⟨39, _⟩ => ⟨S_, .f32⟩
  | .hbm, ⟨40, _⟩ => ⟨S50000x32x4, .f32⟩
  | .hbm, ⟨41, _⟩ => ⟨S50000x32x4, .f32⟩
  | .hbm, ⟨42, _⟩ => ⟨S50000x32x4, .f32⟩
  | .hbm, ⟨43, _⟩ => ⟨S800000x1x1, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x32x4, .f32⟩
  | .hbm, ⟨53, _⟩ => ⟨S800000x32x4, .f32⟩
  | .hbm, ⟨54, _⟩ => ⟨S800000x32x4, .f32⟩
  | .hbm, ⟨55, _⟩ => ⟨S_, .f32⟩
  | .hbm, ⟨56, _⟩ => ⟨S50000x32x4, .f32⟩
  | .hbm, ⟨57, _⟩ => ⟨S800000x1, .i32⟩
  | .hbm, ⟨58, _⟩ => ⟨S50000x32x4, .f32⟩
  | .hbm, ⟨59, _⟩ => ⟨S_, .f32⟩
  | .hbm, ⟨60, _⟩ => ⟨S50000x32x4, .f32⟩
  | .hbm, ⟨61, _⟩ => ⟨S50000x32x4, .f32⟩
  | .hbm, ⟨62, _⟩ => ⟨S50000x32x4, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S4x50000x32, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x32, .f32⟩
  | .local _ .vmem, ⟨9, _⟩ => ⟨S1x1x32, .f32⟩
  | .local _ .vmem, ⟨10, _⟩ => ⟨S4x2000x32, .f32⟩
  | .local _ .vmem, ⟨11, _⟩ => ⟨S4x2000x32, .f32⟩
  | _, _ => ⟨S4x50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x2000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S4x50000x32_S50000x32x4_1_2_0 : S4x50000x32.Transposes [1, 2, 0] S50000x32x4
  bcast_S800000_S800000x1x1_0 : S800000.BroadcastsInDim S800000x1x1 (![0] : Fin 1 → Fin S800000x1x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1x1_S800000x32x4_0_1_2 : S800000x1x1.BroadcastsInDim S800000x32x4 (![0, 1, 2] : Fin 3 → Fin S800000x32x4.rank)
  bcast_S_S50000x32x4 : S_.BroadcastsInDim S50000x32x4 (![] : Fin 0 → Fin S50000x32x4.rank)
  shapeCasts_S50000x32x4_S50000x128 : S50000x32x4.ShapeCasts S50000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S2000x128_S2000x32x4 : S2000x128.ShapeCasts S2000x32x4
  inb_S128x32_S128x32_0_0 : ∀ a, (![0, 0] : Fin 2 → Nat) a + S128x32.size a ≤ S128x32.size a
  h_S128x32 : 0 < S128x32.numel
  bitsLt_bf16_f32 : FTy.bits .bf16 < FTy.bits .f32
  inb_S1x1x32_S1x1x32_0_0_0 : ∀ a, (![0, 0, 0] : Fin 3 → Nat) a + S1x1x32.size a ≤ S1x1x32.size a
  h_S1x1x32 : 0 < S1x1x32.numel
  shapeCasts_S1x1x32_S32 : S1x1x32.ShapeCasts S32
  slices_S2000x32x4_o0_0_0_S2000x32x1 : S2000x32x4.Slices ![0, 0, 0] S2000x32x1
  shapeCasts_S2000x32x1_S2000x32 : S2000x32x1.ShapeCasts S2000x32
  shapeCasts_S2000x32_S2000x32x1 : S2000x32.ShapeCasts S2000x32x1
  concatenates_S2000x32x1_S2000x32x1_S2000x32x1_S2000x32x1_S2000x32x4_d2 : Shape.Concatenates [S2000x32x1, S2000x32x1, S2000x32x1, S2000x32x1] S2000x32x4 2
  shapeCasts_S2000x32x4_S2000x128 : S2000x32x4.ShapeCasts S2000x128
  shapeCasts_S32_S1x32 : S32.ShapeCasts S1x32
  broadcasts_S1x32_S2000x32 : S1x32.Broadcasts S2000x32
  inb_S4x2000x32_S1x2000x32_0_0_0 : ∀ a, (![0, 0, 0] : Fin 3 → Nat) a + S1x2000x32.size a ≤ S4x2000x32.size a
  h_S1x2000x32 : 0 < S1x2000x32.numel
  shapeCasts_S1x2000x32_S2000x32 : S1x2000x32.ShapeCasts S2000x32
  shapeCasts_S2000x32_S1x2000x32 : S2000x32.ShapeCasts S1x2000x32
  slices_S2000x32x4_o0_0_1_S2000x32x1 : S2000x32x4.Slices ![0, 0, 1] S2000x32x1
  inb_S4x2000x32_S1x2000x32_1_0_0 : ∀ a, (![1, 0, 0] : Fin 3 → Nat) a + S1x2000x32.size a ≤ S4x2000x32.size a
  slices_S2000x32x4_o0_0_2_S2000x32x1 : S2000x32x4.Slices ![0, 0, 2] S2000x32x1
  inb_S4x2000x32_S1x2000x32_2_0_0 : ∀ a, (![2, 0, 0] : Fin 3 → Nat) a + S1x2000x32.size a ≤ S4x2000x32.size a
  slices_S2000x32x4_o0_0_3_S2000x32x1 : S2000x32x4.Slices ![0, 0, 3] S2000x32x1
  inb_S4x2000x32_S1x2000x32_3_0_0 : ∀ a, (![3, 0, 0] : Fin 3 → Nat) a + S1x2000x32.size a ≤ S4x2000x32.size a
  gather_S50000x32x4_S800000x1_S800000x32x4_12_0_n_n_0_1_1324_wf : GatherDims.WF S50000x32x4 S800000x1 S800000x32x4 [1, 2] [0] [] [0] [] 1 ![1, 32, 4]
  scatter_S50000x32x4_S800000x1_S800000x32x4_12_0_0_1_wf : ScatterDims.WF S50000x32x4 S800000x1 S800000x32x4 [1, 2] [0] [0] 1
  dot_S2000x128_S128x32_S2000x32_1_0_0_1_n_n_wf : DotDims.WF S2000x128 S128x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x32.size a ≤ S1x1x32.size a
  hwx0_5 : ∀ i : grid0.Coords, EltTy.bits .f32 = 32 ∨ (Rect.block (s := S1x1x32) S1x1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x2000x32.size a ≤ S4x50000x32.size a
  hwx0_6 : ∀ i : grid0.Coords, EltTy.bits .f32 = 32 ∨ (Rect.block (s := S4x50000x32) S4x2000x32.size (cc0_transform_6 i) (hinb0_6 i)).WholeWords (EltTy.packing .f32)

variable [Facts₀]

def gather_S50000x32x4_S800000x1_S800000x32x4_12_0_n_n_0_1_1324 : GatherDims S50000x32x4 S800000x1 S800000x32x4 where
  offsetDims := [1, 2]
  collapsedSliceDims := [0]
  operandBatchingDims := []
  startIndicesBatchingDims := []
  startIndexMap := [0]
  indexVectorDim := 1
  sliceSizes := ![1, 32, 4]
  wf := gather_S50000x32x4_S800000x1_S800000x32x4_12_0_n_n_0_1_1324_wf
def scatter_S50000x32x4_S800000x1_S800000x32x4_12_0_0_1 : ScatterDims S50000x32x4 S800000x1 S800000x32x4 where
  updateWindowDims := [1, 2]
  insertedWindowDims := [0]
  scatterDimsToOperandDims := [0]
  indexVectorDim := 1
  wf := scatter_S50000x32x4_S800000x1_S800000x32x4_12_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf

abbrev win0_0 : Pipeline.Window sig grid0 :=
  Pipeline.Window.ofSpec (Memref.whole main_v46) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v50) S4x2000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x50000x32 : Shape := ⟨3, ![4, 50000, 32]⟩
abbrev S800000 : Shape := ⟨1, ![800000]⟩
abbrev S128x32 : Shape := ⟨2, ![128, 32]⟩
abbrev S1x1x32 : Shape := ⟨3, ![1, 1, 32]⟩
abbrev S50000x32x4 : Shape := ⟨3, ![50000, 32, 4]⟩
abbrev S800000x1x1 : Shape := ⟨3, ![800000, 1, 1]⟩
abbrev S_ : Shape := ⟨0, ![]⟩
abbrev S800000x1 : Shape := ⟨2, ![800000, 1]⟩
abbrev S800000x32x4 : Shape := ⟨3, ![800000, 32, 4]⟩
abbrev S1x50000x32x4 : Shape := ⟨4, ![1, 50000, 32, 4]⟩
abbrev S4x50000x32x4 : Shape := ⟨4, ![4, 50000, 32, 4]⟩
abbrev S200000x128 : Shape := ⟨2, ![200000, 128]⟩
abbrev S200000x32 : Shape := ⟨2, ![200000, 32]⟩

abbrev nBuf : Space → Nat
  | .hbm => 77
  | .vmem => 0
  | .smem => 0
  | _ => 0

abbrev bufTy : (tb : Table) → Fin (tcTables nBuf tb) → BufTy
  | .hbm, ⟨0, _⟩ => ⟨S4x50000x32, .f32⟩
  | .hbm, ⟨1, _⟩ => ⟨S800000, .f32⟩
  | .hbm, ⟨2, _⟩ => ⟨S128x32, .f32⟩
  | .hbm, ⟨3, _⟩ => ⟨S1x1x32, .f32⟩
  | .hbm, ⟨4, _⟩ => ⟨S800000, .i32⟩
  | .hbm, ⟨5, _⟩ => ⟨S800000, .i32⟩
  | .hbm, ⟨6, _⟩ => ⟨S50000x32x4, .f32⟩
  | .hbm, ⟨7, _⟩ => ⟨S800000x1x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x32x4, .f32⟩
  | .hbm, ⟨17, _⟩ => ⟨S800000x32x4, .f32⟩
  | .hbm, ⟨18, _⟩ => ⟨S800000x32x4, .f32⟩
  | .hbm, ⟨19, _⟩ => ⟨S_, .f32⟩
  | .hbm, ⟨20, _⟩ => ⟨S50000x32x4, .f32⟩
  | .hbm, ⟨21, _⟩ => ⟨S800000x1, .i32⟩
  | .hbm, ⟨22, _⟩ => ⟨S50000x32x4, .f32⟩
  | .hbm, ⟨23, _⟩ => ⟨S800000x1x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x32x4, .f32⟩
  | .hbm, ⟨33, _⟩ => ⟨S800000x32x4, .f32⟩
  | .hbm, ⟨34, _⟩ => ⟨S800000x32x4, .f32⟩
  | .hbm, ⟨35, _⟩ => ⟨S_, .f32⟩
  | .hbm, ⟨36, _⟩ => ⟨S50000x32x4, .f32⟩
  | .hbm, ⟨37, _⟩ => ⟨S800000x1, .i32⟩
  | .hbm, ⟨38, _⟩ => ⟨S50000x32x4, .f32⟩
  | .hbm, ⟨39, _⟩ => ⟨S_, .f32⟩
  | .hbm, ⟨40, _⟩ => ⟨S50000x32x4, .f32⟩
  | .hbm, ⟨41, _⟩ => ⟨S50000x32x4, .f32⟩
  | .hbm, ⟨42, _⟩ => ⟨S50000x32x4, .f32⟩
  | .hbm, ⟨43, _⟩ => ⟨S800000x1x1, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x32x4, .f32⟩
  | .hbm, ⟨53, _⟩ => ⟨S800000x32x4, .f32⟩
  | .hbm, ⟨54, _⟩ => ⟨S800000x32x4, .f32⟩
  | .hbm, ⟨55, _⟩ => ⟨S_, .f32⟩
  | .hbm, ⟨56, _⟩ => ⟨S50000x32x4, .f32⟩
  | .hbm, ⟨57, _⟩ => ⟨S800000x1, .i32⟩
  | .hbm, ⟨58, _⟩ => ⟨S50000x32x4, .f32⟩
  | .hbm, ⟨59, _⟩ => ⟨S_, .f32⟩
  | .hbm, ⟨60, _⟩ => ⟨S50000x32x4, .f32⟩
  | .hbm, ⟨61, _⟩ => ⟨S50000x32x4, .f32⟩
  | .hbm, ⟨62, _⟩ => ⟨S50000x32x4, .f32⟩
  | .hbm, ⟨63, _⟩ => ⟨S1x50000x32x4, .f32⟩
  | .hbm, ⟨64, _⟩ => ⟨S1x50000x32x4, .f32⟩
  | .hbm, ⟨65, _⟩ => ⟨S1x50000x32x4, .f32⟩
  | .hbm, ⟨66, _⟩ => ⟨S1x50000x32x4, .f32⟩
  | .hbm, ⟨67, _⟩ => ⟨S4x50000x32x4, .f32⟩
  | .hbm, ⟨68, _⟩ => ⟨S4x50000x32x4, .f32⟩
  | .hbm, ⟨69, _⟩ => ⟨S200000x128, .f32⟩
  | .hbm, ⟨70, _⟩ => ⟨S200000x32, .f32⟩
  | .hbm, ⟨71, _⟩ => ⟨S4x50000x32, .f32⟩
  | .hbm, ⟨72, _⟩ => ⟨S4x50000x32, .f32⟩
  | .hbm, ⟨73, _⟩ => ⟨S4x50000x32, .f32⟩
  | .hbm, ⟨74, _⟩ => ⟨S_, .f32⟩
  | .hbm, ⟨75, _⟩ => ⟨S4x50000x32, .f32⟩
  | .hbm, ⟨76, _⟩ => ⟨S4x50000x32, .f32⟩
  | _, _ => ⟨S4x50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call0_cst : Ref sig .tc := ⟨.hbm, 74, rfl⟩
abbrev main_call0_v0 : Ref sig .tc := ⟨.hbm, 75, rfl⟩
abbrev main_v57 : Ref sig .tc := ⟨.hbm, 76, rfl⟩

abbrev nD : Nat := 1
abbrev τ : Topo := Topo.v7x

variable {F : FTy → Type} [FloatOps F]

class Facts₀ : Prop where
  transposes_S4x50000x32_S50000x32x4_1_2_0 : S4x50000x32.Transposes [1, 2, 0] S50000x32x4
  bcast_S800000_S800000x1x1_0 : S800000.BroadcastsInDim S800000x1x1 (![0] : Fin 1 → Fin S800000x1x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1x1_S800000x32x4_0_1_2 : S800000x1x1.BroadcastsInDim S800000x32x4 (![0, 1, 2] : Fin 3 → Fin S800000x32x4.rank)
  bcast_S_S50000x32x4 : S_.BroadcastsInDim S50000x32x4 (![] : Fin 0 → Fin S50000x32x4.rank)
  bcast_S50000x32x4_S1x50000x32x4_1_2_3 : S50000x32x4.BroadcastsInDim S1x50000x32x4 (![1, 2, 3] : Fin 3 → Fin S1x50000x32x4.rank)
  concatenates_S1x50000x32x4_S1x50000x32x4_S1x50000x32x4_S1x50000x32x4_S4x50000x32x4_d0 : Shape.Concatenates [S1x50000x32x4, S1x50000x32x4, S1x50000x32x4, S1x50000x32x4] S4x50000x32x4 0
  transposes_S4x50000x32x4_S4x50000x32x4_3_1_2_0 : S4x50000x32x4.Transposes [3, 1, 2, 0] S4x50000x32x4
  shapeCasts_S4x50000x32x4_S200000x128 : S4x50000x32x4.ShapeCasts S200000x128
  shapeCasts_S200000x32_S4x50000x32 : S200000x32.ShapeCasts S4x50000x32
  bcast_S1x1x32_S4x50000x32_0_1_2 : S1x1x32.BroadcastsInDim S4x50000x32 (![0, 1, 2] : Fin 3 → Fin S4x50000x32.rank)
  bcast_S_S4x50000x32 : S_.BroadcastsInDim S4x50000x32 (![] : Fin 0 → Fin S4x50000x32.rank)
  gather_S50000x32x4_S800000x1_S800000x32x4_12_0_n_n_0_1_1324_wf : GatherDims.WF S50000x32x4 S800000x1 S800000x32x4 [1, 2] [0] [] [0] [] 1 ![1, 32, 4]
  scatter_S50000x32x4_S800000x1_S800000x32x4_12_0_0_1_wf : ScatterDims.WF S50000x32x4 S800000x1 S800000x32x4 [1, 2] [0] [0] 1
  dot_S200000x128_S128x32_S200000x32_1_0_0_1_n_n_wf : DotDims.WF S200000x128 S128x32 S200000x32 [1] [0] [0] [1] [] []

variable [Facts₀]

def gather_S50000x32x4_S800000x1_S800000x32x4_12_0_n_n_0_1_1324 : GatherDims S50000x32x4 S800000x1 S800000x32x4 where
  offsetDims := [1, 2]
  collapsedSliceDims := [0]
  operandBatchingDims := []
  startIndicesBatchingDims := []
  startIndexMap := [0]
  indexVectorDim := 1
  sliceSizes := ![1, 32, 4]
  wf := gather_S50000x32x4_S800000x1_S800000x32x4_12_0_n_n_0_1_1324_wf
def scatter_S50000x32x4_S800000x1_S800000x32x4_12_0_0_1 : ScatterDims S50000x32x4 S800000x1 S800000x32x4 where
  updateWindowDims := [1, 2]
  insertedWindowDims := [0]
  scatterDimsToOperandDims := [0]
  indexVectorDim := 1
  wf := scatter_S50000x32x4_S800000x1_S800000x32x4_12_0_0_1_wf
def dot_S200000x128_S128x32_S200000x32_1_0_0_1_n_n : DotDims S200000x128 S128x32 S200000x32 where
  lhsContracting := [1]
  rhsContracting := [0]
  lhsNonContracting := [0]
  rhsNonContracting := [1]
  lhsBatch := []
  rhsBatch := []
  wf := dot_S200000x128_S128x32_S200000x32_1_0_0_1_n_n_wf

class Facts : Prop extends Facts₀ where

variable [Facts]
-- ==== Proof.ChebSpec.lean ====
/-
  The dense step of a Chebyshev graph convolution, as one function of its operands.

  Four Chebyshev terms T_0 .. T_3 are given per node as rows of 128 numbers: 32 features times 4 batch
  entries, feature-major (column 4·f + n holds feature f of batch entry n). For batch entry n, node m and
  output channel c the layer is

      out (n, m, c) = max ( Σ_{j < 128} T_{j mod 4} (m, 4·(j / 4) + n) · W (j, c) + b (0, 0, c), 0 ),

  that is: row j = 4·f + k of the weight matrix meets feature f of term k. Nothing here mentions a program:
  the same function is read off the kernel (block of rows by block of rows) and off the reference (all
  rows at once), and a block of rows of it is the same function of the blocks of rows of the terms.
-/
import Idealize.ShloMosaic.PureOps.Ideal
import Idealize.ShloMosaic.Lib.ValueIdx

noncomputable section

namespace Cert.Cheb

open Idealize.ShloMosaic Idealize.ShloMosaic.ValueIdx

/-- One of four, by a position 0 .. 3. -/
def pick {α : Type} (k : Nat) (a b c d : α) : α :=
  match k with
  | 0 => a
  | 1 => b
  | 2 => c
  | _ => d

theorem pick_apply {ι α : Type} (k : Nat) (a b c d : ι → α) (x : ι) :
    pick k a b c d x = pick k (a x) (b x) (c x) (d x) := by
  unfold pick; split <;> rfl

theorem pick_congr {α : Type} (k : Nat) {a b c d a' b' c' d' : α} (ha : a = a') (hb : b = b') (hc : c = c')
    (hd : d = d') : pick k a b c d = pick k a' b' c' d' := by
  rw [ha, hb, hc, hd]

/-- The column of a term's row that row j of the weights meets, for batch entry n: feature j / 4, entry n. -/
abbrev col (n : Fin 4) (j : Fin 128) : Fin 128 :=
  ⟨j.val / 4 * 4 + n.val, by have := j.isLt; have := n.isLt; omega⟩

/-- The layer at (n, m, c), over terms of M rows each. -/
def layerAt {M : Nat} (T0 T1 T2 T3 : (⟨2, ![M, 128]⟩ : Shape).Idx → EReal)
    (W : (⟨2, ![128, 32]⟩ : Shape).Idx → EReal) (b : (⟨3, ![1, 1, 32]⟩ : Shape).Idx → EReal)
    (n : Fin 4) (m : Fin M) (c : Fin 32) : EReal :=
  max ((∑ j : Fin 128, pick (j.val % 4) T0 T1 T2 T3 (ix2 m (col n j)) * W (ix2 j c))
      + b (ix3 (⟨0, Nat.one_pos⟩ : Fin 1) (⟨0, Nat.one_pos⟩ : Fin 1) c))
    (Ideal.ofBits .f32 0x00000000#32)

/-- The layer as an array [4, M, 32]. -/
def dense {M : Nat} (T0 T1 T2 T3 : (⟨2, ![M, 128]⟩ : Shape).Idx → EReal)
    (W : (⟨2, ![128, 32]⟩ : Shape).Idx → EReal) (b : (⟨3, ![1, 1, 32]⟩ : Shape).Idx → EReal) :
    (⟨3, ![4, M, 32]⟩ : Shape).Idx → EReal :=
  fun i => layerAt T0 T1 T2 T3 W b (i 0) (i 1) (i 2)

theorem dense_ix3 {M : Nat} (T0 T1 T2 T3 : (⟨2, ![M, 128]⟩ : Shape).Idx → EReal)
    (W : (⟨2, ![128, 32]⟩ : Shape).Idx → EReal) (b : (⟨3, ![1, 1, 32]⟩ : Shape).Idx → EReal)
    (n : Fin 4) (m : Fin M) (c : Fin 32) :
    dense T0 T1 T2 T3 W b (ix3 n m c) = layerAt T0 T1 T2 T3 W b n m c := rfl

/-- Rows o .. o + R of the layer depend only on rows o .. o + R of the terms: the layer over the blocks
    B_k (r, ·) = T_k (o + r, ·), at row r, is the layer over the whole terms at row o + r. -/
theorem layerAt_rows {M R : Nat} (T0 T1 T2 T3 : (⟨2, ![M, 128]⟩ : Shape).Idx → EReal)
    (B0 B1 B2 B3 : (⟨2, ![R, 128]⟩ : Shape).Idx → EReal)
    (W : (⟨2, ![128, 32]⟩ : Shape).Idx → EReal) (b : (⟨3, ![1, 1, 32]⟩ : Shape).Idx → EReal)
    (r : Fin R) (m : Fin M)
    (h0 : ∀ q : Fin 128, B0 (ix2 r q) = T0 (ix2 m q)) (h1 : ∀ q : Fin 128, B1 (ix2 r q) = T1 (ix2 m q))
    (h2 : ∀ q : Fin 128, B2 (ix2 r q) = T2 (ix2 m q)) (h3 : ∀ q : Fin 128, B3 (ix2 r q) = T3 (ix2 m q))
    (n : Fin 4) (c : Fin 32) :
    layerAt B0 B1 B2 B3 W b n r c = layerAt T0 T1 T2 T3 W b n m c := by
  unfold layerAt
  refine congrArg (fun s => max (s + _) _) (Finset.sum_congr rfl fun j _ => ?_)
  rw [pick_apply, pick_apply]
  exact congrArg (· * _) (pick_congr _ (h0 _) (h1 _) (h2 _) (h3 _))

/-- The same for the arrays: at a block index i whose place in the whole array is i' — the same batch entry and
    channel, and a row of the whole whose terms' rows are the block's rows — the layer over the blocks at i is
    the layer over the whole terms at i'. The weights and the bias may be given as arrays equal to W and b. -/
theorem dense_rows {M R : Nat} (T0 T1 T2 T3 : (⟨2, ![M, 128]⟩ : Shape).Idx → EReal)
    (B0 B1 B2 B3 : (⟨2, ![R, 128]⟩ : Shape).Idx → EReal)
    (W W' : (⟨2, ![128, 32]⟩ : Shape).Idx → EReal) (b b' : (⟨3, ![1, 1, 32]⟩ : Shape).Idx → EReal)
    (hW : W' = W) (hb : b' = b)
    (i : (⟨3, ![4, R, 32]⟩ : Shape).Idx) (i' : (⟨3, ![4, M, 32]⟩ : Shape).Idx)
    (h0 : (i' 0).val = (i 0).val) (h2 : (i' 2).val = (i 2).val)
    (r0 : ∀ q : Fin 128, B0 (ix2 (i 1 : Fin R) q) = T0 (ix2 (i' 1 : Fin M) q))
    (r1 : ∀ q : Fin 128, B1 (ix2 (i 1 : Fin R) q) = T1 (ix2 (i' 1 : Fin M) q))
    (r2 : ∀ q : Fin 128, B2 (ix2 (i 1 : Fin R) q) = T2 (ix2 (i' 1 : Fin M) q))
    (r3 : ∀ q : Fin 128, B3 (ix2 (i 1 : Fin R) q) = T3 (ix2 (i' 1 : Fin M) q)) :
    dense B0 B1 B2 B3 W' b' i = dense T0 T1 T2 T3 W b i' := by
  subst hW hb
  unfold dense
  have e0 : (i' 0 : Fin 4) = (i 0 : Fin 4) := Fin.ext h0
  have e2 : (i' 2 : Fin 32) = (i 2 : Fin 32) := Fin.ext h2
  rw [e0, e2]
  exact layerAt_rows T0 T1 T2 T3 B0 B1 B2 B3 _ _ (i 1) (i' 1) r0 r1 r2 r3 (i 0) (i 2)

end Cert.Cheb

end
-- ==== Proof.ChebLayout.lean ====
/-
  The re-layings the dense step goes through, each read at an index.

  A term's row of 128 numbers is regrouped as 32 features of 4 batch entries (column 4·f + n ↔ (f, n)); one batch
  entry is cut out of each of the four terms; the four cuts are set side by side as the last axis (feature f of
  term k at (f, k)); and the rows are flattened again (column j ↔ feature j / 4 of term j mod 4). The bias, a
  [1, 1, 32] array, is stretched over the rows. The row count R is symbolic: a block of rows and the whole
  array are read by the same lemmas.
-/
import Idealize.ShloMosaic.Lib.Pipeline.Value
import Idealize.ShloMosaic.Lib.ValueIdx
import Idealize.ShloMosaic.Lib.ValueLayout
import proofs.«156339_j62955630625379_2_alg».proof.Proof.ChebSpec

noncomputable section

namespace Cert.Cheb

open Idealize.ShloMosaic Idealize.ShloMosaic.ValueIdx

variable {α : Type} {R : Nat}

/-- A row of 128 regrouped as 32 features of 4 entries: (r, f, n) is column 4·f + n of row r. -/
theorem regroup_apply (x : (⟨2, ![R, 128]⟩ : Shape).Idx → α)
    (h : (⟨2, ![R, 128]⟩ : Shape).ShapeCasts ⟨3, ![R, 32, 4]⟩) (r : Fin R) (f : Fin 32) (n : Fin 4) :
    shapeCast ⟨3, ![R, 32, 4]⟩ x h (ix3 r f n)
      = x (ix2 r (⟨f.val * 4 + n.val, by have := f.isLt; have := n.isLt; omega⟩ : Fin 128)) :=
  shapeCast_apply x h _ _ (by
    rw [Shape.rowMajor_val_two, Shape.rowMajor_val_three]
    show r.val * 128 + (f.val * 4 + n.val) = (r.val * 32 + f.val) * 4 + n.val
    omega)

/-- The rows flattened again: column j of row r is entry j mod 4 of feature j / 4. -/
theorem flatten_apply (x : (⟨3, ![R, 32, 4]⟩ : Shape).Idx → α)
    (h : (⟨3, ![R, 32, 4]⟩ : Shape).ShapeCasts ⟨2, ![R, 128]⟩) (r : Fin R) (j : Fin 128) :
    shapeCast ⟨2, ![R, 128]⟩ x h (ix2 r j)
      = x (ix3 r (⟨j.val / 4, by have := j.isLt; omega⟩ : Fin 32) (⟨j.val % 4, by omega⟩ : Fin 4)) :=
  shapeCast_apply x h _ _ (by
    rw [Shape.rowMajor_val_two, Shape.rowMajor_val_three]
    show (r.val * 32 + j.val / 4) * 4 + j.val % 4 = r.val * 128 + j.val
    omega)

/-- One batch entry cut out of a term: the slice at offset n on the last axis, at (r, f, 0), is (r, f, n). -/
theorem entry_apply (off : Fin 3 → Nat) (x : (⟨3, ![R, 32, 4]⟩ : Shape).Idx → α)
    (h : (⟨3, ![R, 32, 4]⟩ : Shape).Slices off ⟨3, ![R, 32, 1]⟩) (n : Fin 4)
    (h0 : off 0 = 0) (h1 : off 1 = 0) (h2 : off 2 = n.val) (r : Fin R) (f : Fin 32) (u : Fin 1) :
    extractStridedSlice ⟨3, ![R, 32, 1]⟩ off x h (ix3 r f u) = x (ix3 r f n) :=
  extractStridedSlice_apply off x h _ _ (fun a => by
    match a with
    | ⟨0, _⟩ => show r.val = off 0 + r.val; omega
    | ⟨1, _⟩ => show f.val = off 1 + f.val; omega
    | ⟨2, _⟩ => show n.val = off 2 + u.val; have := u.isLt; omega)

/-- Four [R, 32, 1] arrays side by side along the last axis: (r, f, k) is array k at (r, f, 0). -/
theorem beside4_apply (p0 p1 p2 p3 : (⟨3, ![R, 32, 1]⟩ : Shape).Idx → α)
    (h : Shape.Concatenates [(⟨3, ![R, 32, 1]⟩ : Shape), ⟨3, ![R, 32, 1]⟩, ⟨3, ![R, 32, 1]⟩, ⟨3, ![R, 32, 1]⟩]
      ⟨3, ![R, 32, 4]⟩ 2) (r : Fin R) (f : Fin 32) (k : Fin 4) :
    concatenate ⟨3, ![R, 32, 4]⟩ 2 [⟨⟨3, ![R, 32, 1]⟩, p0⟩, ⟨⟨3, ![R, 32, 1]⟩, p1⟩, ⟨⟨3, ![R, 32, 1]⟩, p2⟩,
        ⟨⟨3, ![R, 32, 1]⟩, p3⟩] h (ix3 r f k)
      = pick k.val p0 p1 p2 p3 (ix3 r f (⟨0, Nat.one_pos⟩ : Fin 1)) := by
  have hi : ∀ b : Fin 3, b.cast (rfl : (3 : Nat) = 3) ≠ (2 : Fin 3) →
      ((ix3 r f (⟨0, Nat.one_pos⟩ : Fin 1) : (⟨3, ![R, 32, 1]⟩ : Shape).Idx) b).val
        = ((ix3 r f k : (⟨3, ![R, 32, 4]⟩ : Shape).Idx) (b.cast rfl)).val := fun b hb => by
    match b with
    | ⟨0, _⟩ => rfl
    | ⟨1, _⟩ => rfl
    | ⟨2, _⟩ => exact absurd rfl hb
  match k with
  | ⟨0, _⟩ =>
    exact concatenate_apply_piece (t := ⟨3, ![R, 32, 4]⟩) (2 : Fin 3)
      [⟨⟨3, ![R, 32, 1]⟩, p0⟩, ⟨⟨3, ![R, 32, 1]⟩, p1⟩, ⟨⟨3, ![R, 32, 1]⟩, p2⟩, ⟨⟨3, ![R, 32, 1]⟩, p3⟩]
      h _ 0 (by show (0 : Nat) < 4; decide) ⟨3, ![R, 32, 1]⟩ p0 rfl rfl 0 rfl _ hi rfl
  | ⟨1, _⟩ =>
    exact concatenate_apply_piece (t := ⟨3, ![R, 32, 4]⟩) (2 : Fin 3)
      [⟨⟨3, ![R, 32, 1]⟩, p0⟩, ⟨⟨3, ![R, 32, 1]⟩, p1⟩, ⟨⟨3, ![R, 32, 1]⟩, p2⟩, ⟨⟨3, ![R, 32, 1]⟩, p3⟩]
      h _ 1 (by show (1 : Nat) < 4; decide) ⟨3, ![R, 32, 1]⟩ p1 rfl rfl 1 rfl _ hi rfl
  | ⟨2, _⟩ =>
    exact concatenate_apply_piece (t := ⟨3, ![R, 32, 4]⟩) (2 : Fin 3)
      [⟨⟨3, ![R, 32, 1]⟩, p0⟩, ⟨⟨3, ![R, 32, 1]⟩, p1⟩, ⟨⟨3, ![R, 32, 1]⟩, p2⟩, ⟨⟨3, ![R, 32, 1]⟩, p3⟩]
      h _ 2 (by show (2 : Nat) < 4; decide) ⟨3, ![R, 32, 1]⟩ p2 rfl rfl 2 rfl _ hi rfl
  | ⟨3, _⟩ =>
    exact concatenate_apply_piece (t := ⟨3, ![R, 32, 4]⟩) (2 : Fin 3)
      [⟨⟨3, ![R, 32, 1]⟩, p0⟩, ⟨⟨3, ![R, 32, 1]⟩, p1⟩, ⟨⟨3, ![R, 32, 1]⟩, p2⟩, ⟨⟨3, ![R, 32, 1]⟩, p3⟩]
      h _ 3 (by show (3 : Nat) < 4; decide) ⟨3, ![R, 32, 1]⟩ p3 rfl rfl 3 rfl _ hi rfl

/-- The bias as the body stretches it over the rows: [1, 1, 32] → [32] → [1, 32] → [R, 32] at (r, c) is (0, 0, c). -/
theorem bias_apply (x : (⟨3, ![1, 1, 32]⟩ : Shape).Idx → α)
    (h1 : (⟨3, ![1, 1, 32]⟩ : Shape).ShapeCasts ⟨1, ![32]⟩) (h2 : (⟨1, ![32]⟩ : Shape).ShapeCasts ⟨2, ![1, 32]⟩)
    (h3 : (⟨2, ![1, 32]⟩ : Shape).Broadcasts ⟨2, ![R, 32]⟩) (r : Fin R) (c : Fin 32) :
    broadcastTo ⟨2, ![R, 32]⟩ (shapeCast ⟨2, ![1, 32]⟩ (shapeCast ⟨1, ![32]⟩ x h1) h2) h3 (ix2 r c)
      = x (ix3 (⟨0, Nat.one_pos⟩ : Fin 1) (⟨0, Nat.one_pos⟩ : Fin 1) c) := by
  rw [broadcastTo_1b_ab_apply, shapeCast_a_1a_apply]
  exact shapeCast_apply x h1 _ _ (by
    rw [Shape.rowMajor_val_three, Shape.rowMajor_val_one]
    show (0 * 1 + 0) * 32 + c.val = c.val
    omega)

end Cert.Cheb

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.ChebBody.lean ====
/-
  What the kernel body leaves in its output block, as the dense step of the blocks it loads.

  At a grid point the body loads a block of 2000 rows of each of the four terms (rows of 128 numbers), the
  weights [128, 32] and the bias [1, 1, 32], and stores four slabs [1, 2000, 32], one per batch entry n. For
  entry n it regroups each term's rows as [2000, 32, 4], cuts entry n out, sets the four cuts side by side
  (feature f of term k at (f, k)), flattens to [2000, 128] — column j = 4·f + k — and multiplies by the
  weights into a zero accumulator; adds the bias row; takes the maximum with zero. So slab n at (r, c) is

      max ( Σ_j T_{j mod 4} (r, 4·(j / 4) + n) · W (j, c) + b (0, 0, c), 0 ),

  the dense step of the loaded blocks; the four slabs tile the output block, which is therefore that
  function at every index.
-/
import proofs.«156339_j62955630625379_2_alg».proof.Proof.Gen.KernelIdeal.Frame
import proofs.«156339_j62955630625379_2_alg».proof.Proof.ChebLayout
import proofs.«156339_j62955630625379_2_alg».proof.Proof.LibPlainDot
import Idealize.ShloMosaic.PureOps.Ideal.Laws

noncomputable section

namespace Cert.KernelIdeal.Body

open Cert.KernelIdeal Cert.KernelIdeal.Gen Cert.Cheb
open Idealize.ShloMosaic Idealize.ShloMosaic.ValueIdx

/-! ## One batch entry's slab, for any offset of the cut -/

section
variable {F : FTy → Type} [FloatOps F]

/-- The body's computation of one slab from the regrouped blocks, the cut's offsets a parameter: the four
    payloads the body stores are this at the offsets (0, 0, n), n = 0 .. 3. -/
def slab (off : Fin 3 → Nat) (hs : S2000x32x4.Slices off S2000x32x1)
    (v2 v5 v8 v11 : FVec F S2000x32x4 .f32) (v13 : FVec F S128x32 .bf16) (v15 : FVec F S32 .f32) :
    FVec F S1x2000x32 .f32 :=
  shapeCast S1x2000x32
    (maximumf
      (addf
        (matmul dot_S2000x128_S128x32_S2000x32_1_0_0_1_n_n none
          (truncf .bf16
            (shapeCast S2000x128
              (concatenate S2000x32x4 2
                [⟨S2000x32x1, shapeCast S2000x32x1 (shapeCast S2000x32 (extractStridedSlice S2000x32x1 off v2 hs)
                    shapeCasts_S2000x32x1_S2000x32) shapeCasts_S2000x32_S2000x32x1⟩,
                  ⟨S2000x32x1, shapeCast S2000x32x1 (shapeCast S2000x32 (extractStridedSlice S2000x32x1 off v5 hs)
                    shapeCasts_S2000x32x1_S2000x32) shapeCasts_S2000x32_S2000x32x1⟩,
                  ⟨S2000x32x1, shapeCast S2000x32x1 (shapeCast S2000x32 (extractStridedSlice S2000x32x1 off v8 hs)
                    shapeCasts_S2000x32x1_S2000x32) shapeCasts_S2000x32_S2000x32x1⟩,
                  ⟨S2000x32x1, shapeCast S2000x32x1 (shapeCast S2000x32 (extractStridedSlice S2000x32x1 off v11 hs)
                    shapeCasts_S2000x32x1_S2000x32) shapeCasts_S2000x32_S2000x32x1⟩]
                concatenates_S2000x32x1_S2000x32x1_S2000x32x1_S2000x32x1_S2000x32x4_d2)
              shapeCasts_S2000x32x4_S2000x128)
            bitsLt_bf16_f32)
          v13 (constant S2000x32 .f32 0x00000000#32))
        (broadcastTo S2000x32 (shapeCast S1x32 v15 shapeCasts_S32_S1x32) broadcasts_S1x32_S2000x32))
      (broadcast S2000x32 (Scalar.ofBits .f32 0x00000000#32)))
    shapeCasts_S2000x32_S1x2000x32

theorem pay8_eq (v0 v3 v6 v9 : Vec F S2000x128 .f32) (v12 : Vec F S128x32 .f32) (v14 : Vec F S1x1x32 .f32) :
    k0_pay8 v0 v3 v6 v9 v12 v14
      = slab ![0, 0, 0] slices_S2000x32x4_o0_0_0_S2000x32x1 (k0_pay2 v0) (k0_pay3 v3) (k0_pay4 v6) (k0_pay5 v9)
          (k0_pay6 v12) (k0_pay7 v14) := rfl

theorem pay9_eq (v2 v5 v8 v11 : FVec F S2000x32x4 .f32) (v13 : FVec F S128x32 .bf16) (v15 : FVec F S32 .f32) :
    k0_pay9 v2 v5 v8 v11 v13 v15 = slab ![0, 0, 1] slices_S2000x32x4_o0_0_1_S2000x32x1 v2 v5 v8 v11 v13 v15 := rfl

theorem pay10_eq (v2 v5 v8 v11 : FVec F S2000x32x4 .f32) (v13 : FVec F S128x32 .bf16) (v15 : FVec F S32 .f32) :
    k0_pay10 v2 v5 v8 v11 v13 v15 = slab ![0, 0, 2] slices_S2000x32x4_o0_0_2_S2000x32x1 v2 v5 v8 v11 v13 v15 := rfl

theorem pay1_eq (v2 v5 v8 v11 : FVec F S2000x32x4 .f32) (v13 : FVec F S128x32 .bf16) (v15 : FVec F S32 .f32) :
    k0_pay1 v2 v5 v8 v11 v13 v15 = slab ![0, 0, 3] slices_S2000x32x4_o0_0_3_S2000x32x1 v2 v5 v8 v11 v13 v15 := rfl

end

/-! ## The slab at an index, at the ideal values -/

/-- A loaded block of a term regrouped: (r, f, n) is column 4·f + n of row r. -/
theorem regrouped_apply (x : FVec Ideal S2000x128 .f32) (r : Fin 2000) (f : Fin 32) (n : Fin 4) :
    shapeCast S2000x32x4 (shapeCast S2000x128 x shapeCasts_S2000x128_S2000x128) shapeCasts_S2000x128_S2000x32x4 (ix3 r f n)
      = x (ix2 r (⟨f.val * 4 + n.val, by have := f.isLt; have := n.isLt; omega⟩ : Fin 128)) := by
  rw [shapeCast_self]
  exact regroup_apply x _ r f n

/-- One of the four cuts as the body re-lays it (cut, drop the unit axis, add it back) at (r, f, 0): the
    block's row r at column 4·f + n. -/
theorem cut_apply (off : Fin 3 → Nat) (hs : S2000x32x4.Slices off S2000x32x1) (n : Fin 4)
    (h0 : off 0 = 0) (h1 : off 1 = 0) (h2 : off 2 = n.val) (x : FVec Ideal S2000x128 .f32)
    (r : Fin 2000) (f : Fin 32) :
    shapeCast S2000x32x1 (shapeCast S2000x32 (extractStridedSlice S2000x32x1 off
        (shapeCast S2000x32x4 (shapeCast S2000x128 x shapeCasts_S2000x128_S2000x128) shapeCasts_S2000x128_S2000x32x4) hs)
        shapeCasts_S2000x32x1_S2000x32) shapeCasts_S2000x32_S2000x32x1 (ix3 r f (⟨0, Nat.one_pos⟩ : Fin 1))
      = x (ix2 r (⟨f.val * 4 + n.val, by have := f.isLt; have := n.isLt; omega⟩ : Fin 128)) := by
  rw [shapeCast_shapeCast]
  refine (entry_apply off _ hs n h0 h1 h2 r f _).trans ?_
  exact regrouped_apply x r f n

/-- Slab n of the body at (0, r, c) is the dense step of the loaded blocks at (n, r, c). -/
theorem slab_apply (off : Fin 3 → Nat) (hs : S2000x32x4.Slices off S2000x32x1) (n : Fin 4)
    (h0 : off 0 = 0) (h1 : off 1 = 0) (h2 : off 2 = n.val)
    (x0 x1 x2 x3 : FVec Ideal S2000x128 .f32) (x4 : FVec Ideal S128x32 .f32) (x5 : FVec Ideal S1x1x32 .f32)
    (u : Fin 1) (r : Fin 2000) (c : Fin 32) :
    slab (F := Ideal) off hs (k0_pay2 x0) (k0_pay3 x1) (k0_pay4 x2) (k0_pay5 x3) (k0_pay6 x4) (k0_pay7 x5) (ix3 u r c)
      = layerAt x0 x1 x2 x3 x4 x5 n r c := by
  unfold slab layerAt
  refine (shapeCast_ab_1ab_apply _ _ u r c).trans ?_
  simp only [maximumf_apply, addf_apply, broadcast_apply]
  refine congrArg₂ max (congrArg₂ (· + ·) ?_ ?_) rfl
  · -- the product
    refine (Cert.Lib.PlainDot.matmul_zero_apply (R := 2000) (K := 128) (C := 32) _ rfl none _ _ (ix2 r c)).trans ?_
    unfold Cert.Lib.PlainDot.mm
    refine Finset.sum_congr rfl fun j _ => ?_
    have er : Cert.Lib.PlainDot.rowIdx (R := 2000) (K := 128) (C := 32) (ix2 r c) j = ix2 r j :=
      funext fun a => by
        match a with
        | ⟨0, _⟩ => rfl
        | ⟨1, _⟩ => rfl
    have ec : Cert.Lib.PlainDot.colIdx (R := 2000) (K := 128) (C := 32) (ix2 r c) j = ix2 j c :=
      funext fun a => by
        match a with
        | ⟨0, _⟩ => rfl
        | ⟨1, _⟩ => rfl
    rw [er, ec]
    refine congrArg₂ (· * ·) ?_ rfl
    refine (truncf_apply (ψ := .bf16) _ bitsLt_bf16_f32 (ix2 r j)).trans ?_
    refine (flatten_apply _ _ r j).trans ?_
    refine (beside4_apply _ _ _ _ _ r _ ⟨j.val % 4, by omega⟩).trans ?_
    rw [pick_apply, pick_apply]
    refine pick_congr _ ?_ ?_ ?_ ?_
    · exact cut_apply off hs n h0 h1 h2 x0 r _
    · exact cut_apply off hs n h0 h1 h2 x1 r _
    · exact cut_apply off hs n h0 h1 h2 x2 r _
    · exact cut_apply off hs n h0 h1 h2 x3 r _
  · -- the bias row
    exact bias_apply x5 _ _ _ r c

/-! ## The output block -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The dense step of the loaded blocks, at the place a slab's index has in the output block. -/
theorem dense_emb (x0 x1 x2 x3 : FVec Ideal S2000x128 .f32) (x4 : FVec Ideal S128x32 .f32) (x5 : FVec Ideal S1x1x32 .f32)
    (q : Fin 4) (off : Fin 3 → Nat) (inb : ∀ a, off a + S1x2000x32.size a ≤ S4x2000x32.size a)
    (h0 : off 0 = q.val) (h1 : off 1 = 0) (h2 : off 2 = 0) (u : Fin 1) (r : Fin 2000) (c : Fin 32) :
    dense (M := 2000) x0 x1 x2 x3 x4 x5 ((Rect.unit (s := S4x2000x32) off S1x2000x32.size inb).emb (ix3 u r c))
      = layerAt x0 x1 x2 x3 x4 x5 q r c := by
  unfold dense
  have e0 : (Rect.unit (s := S4x2000x32) off S1x2000x32.size inb).emb (ix3 u r c) 0 = q :=
    Fin.ext (by show off 0 + 1 * u.val = q.val; have := u.isLt; omega)
  have e1 : (Rect.unit (s := S4x2000x32) off S1x2000x32.size inb).emb (ix3 u r c) 1 = r :=
    Fin.ext (by show off 1 + 1 * r.val = r.val; omega)
  have e2 : (Rect.unit (s := S4x2000x32) off S1x2000x32.size inb).emb (ix3 u r c) 2 = c :=
    Fin.ext (by show off 2 + 1 * c.val = c.val; omega)
  rw [e0, e1, e2]

/-- What the body leaves in the output block is the dense step of the blocks it loaded. -/
theorem out_eq (x0 x1 x2 x3 : Vec Ideal S2000x128 .f32) (x4 : Vec Ideal S128x32 .f32) (x5 : Vec Ideal S1x1x32 .f32) :
    out0_6 x0 x1 x2 x3 x4 x5 = dense (M := 2000) x0 x1 x2 x3 x4 x5 := by
  funext y
  unfold out0_6
  simp only [View.ld_unit_zero (S := S2000x128) zeros2, View.ld_unit_zero (S := S128x32) zeros2,
    View.ld_unit_zero (S := S1x1x32) zeros3]
  refine View.canon_apply_of_pieces (Val := Elt Ideal) (S := S4x2000x32) (e := .f32) (dense (M := 2000) x0 x1 x2 x3 x4 x5) _ ?_ y (cover0_6 _ _ _ _ y)
  intro p hp
  simp only [List.mem_cons, List.not_mem_nil, or_false] at hp
  rcases hp with rfl | rfl | rfl | rfl
  · intro x
    obtain ⟨u, r, c, rfl⟩ : ∃ (u : Fin 1) (r : Fin 2000) (c : Fin 32), x = ix3 u r c := ⟨x 0, x 1, x 2, eq_ix3 x⟩
    show k0_pay1 (F := Ideal) _ _ _ _ _ _ (ix3 u r c)
      = dense (M := 2000) x0 x1 x2 x3 x4 x5
          ((Rect.unit (s := S4x2000x32) ![3, 0, 0] S1x2000x32.size inb_S4x2000x32_S1x2000x32_3_0_0).emb (ix3 u r c))
    rw [pay1_eq]
    exact (slab_apply ![0, 0, 3] _ 3 rfl rfl rfl x0 x1 x2 x3 x4 x5 u r c).trans
      (dense_emb x0 x1 x2 x3 x4 x5 3 ![3, 0, 0] inb_S4x2000x32_S1x2000x32_3_0_0 rfl rfl rfl u r c).symm
  · intro x
    obtain ⟨u, r, c, rfl⟩ : ∃ (u : Fin 1) (r : Fin 2000) (c : Fin 32), x = ix3 u r c := ⟨x 0, x 1, x 2, eq_ix3 x⟩
    show k0_pay10 (F := Ideal) _ _ _ _ _ _ (ix3 u r c)
      = dense (M := 2000) x0 x1 x2 x3 x4 x5
          ((Rect.unit (s := S4x2000x32) ![2, 0, 0] S1x2000x32.size inb_S4x2000x32_S1x2000x32_2_0_0).emb (ix3 u r c))
    rw [pay10_eq]
    exact (slab_apply ![0, 0, 2] _ 2 rfl rfl rfl x0 x1 x2 x3 x4 x5 u r c).trans
      (dense_emb x0 x1 x2 x3 x4 x5 2 ![2, 0, 0] inb_S4x2000x32_S1x2000x32_2_0_0 rfl rfl rfl u r c).symm
  · intro x
    obtain ⟨u, r, c, rfl⟩ : ∃ (u : Fin 1) (r : Fin 2000) (c : Fin 32), x = ix3 u r c := ⟨x 0, x 1, x 2, eq_ix3 x⟩
    show k0_pay9 (F := Ideal) _ _ _ _ _ _ (ix3 u r c)
      = dense (M := 2000) x0 x1 x2 x3 x4 x5
          ((Rect.unit (s := S4x2000x32) ![1, 0, 0] S1x2000x32.size inb_S4x2000x32_S1x2000x32_1_0_0).emb (ix3 u r c))
    rw [pay9_eq]
    exact (slab_apply ![0, 0, 1] _ 1 rfl rfl rfl x0 x1 x2 x3 x4 x5 u r c).trans
      (dense_emb x0 x1 x2 x3 x4 x5 1 ![1, 0, 0] inb_S4x2000x32_S1x2000x32_1_0_0 rfl rfl rfl u r c).symm
  · intro x
    obtain ⟨u, r, c, rfl⟩ : ∃ (u : Fin 1) (r : Fin 2000) (c : Fin 32), x = ix3 u r c := ⟨x 0, x 1, x 2, eq_ix3 x⟩
    show k0_pay8 (F := Ideal) _ _ _ _ _ _ (ix3 u r c)
      = dense (M := 2000) x0 x1 x2 x3 x4 x5
          ((Rect.unit (s := S4x2000x32) ![0, 0, 0] S1x2000x32.size inb_S4x2000x32_S1x2000x32_0_0_0).emb (ix3 u r c))
    rw [pay8_eq]
    exact (slab_apply ![0, 0, 0] _ 0 rfl rfl rfl x0 x1 x2 x3 x4 x5 u r c).trans
      (dense_emb x0 x1 x2 x3 x4 x5 0 ![0, 0, 0] inb_S4x2000x32_S1x2000x32_0_0_0 rfl rfl rfl u r c).symm

end Cert.KernelIdeal.Body

end
-- ==== Proof.ChebArray.lean ====
/-
  The kernel's output array after the run: the dense step of the arrays its windows stage.

  The grid has 25 points. At point t the four term windows stage rows 2000·t .. 2000·t + 1999 of their arrays
  [50000, 128], the weight and bias windows their whole arrays, and the output window writes back the block of
  rows 2000·t .. 2000·t + 1999 (all four batch entries, all channels) of the result [4, 50000, 32]. What is
  written back is the dense step of the staged blocks, and a block of rows of the dense step depends only on
  those rows of the terms: so point t writes block t of the dense step of the whole arrays. The 25 blocks tile
  the result, which therefore ends as that function everywhere.
-/
import proofs.«156339_j62955630625379_2_alg».proof.Proof.Gen.KernelIdeal.Value
import proofs.«156339_j62955630625379_2_alg».proof.Proof.ChebBody

noncomputable section

namespace Cert.KernelIdeal.Whole

open Cert.KernelIdeal Cert.KernelIdeal.Gen Cert.KernelIdeal.Value Cert.KernelIdeal.Body Cert.Cheb
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The windows' index maps over the 25 grid points: the term windows take block t of rows, the weights and
    the bias their one block, the output block t along its row axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 3) = 0 ∧ win0_6.index t (1 : Fin 3) = t.val ∧ win0_6.index t (2 : Fin 3) = 0 :=
  (by decide +kernel : ∀ t : Fin grid0.N, _)

/-- Every block of rows of the result is some point's. -/
theorem idx_onto : ∀ q : Fin 25, ∃ t : Fin cfg0.N, win0_6.index t = ![0, q.val, 0] :=
  (by decide +kernel : ∀ q : Fin 25, ∃ t : Fin grid0.N, win0_6.index t = ![0, q.val, 0])

/-- The result array: the dense step of the staged arrays as the region finds them. -/
def G (c : Dev nD) : S4x50000x32.Idx → EReal :=
  dense (M := 50000) (V m c main_v46) (V m c main_v47) (V m c main_v48) (V m c main_v49) (V m c main_arg2)
    (V m c main_arg3)

/-- Through the block term window 0 stages at point t, row r of the block is row 2000·t + r of the window's
    array, whatever the array holds. -/
theorem read_rows0 (c : Dev nD) (A : Buf (Elt Ideal) ((c : Thread nD τ).loc main_v46)) (t : Fin cfg0.N)
    (r : Fin 2000) (q : Fin 128) (M : Fin 50000) (hM : M.val = t.val * 2000 + r.val) :
    ((cfg0.win 0).blk t).view.read (Elt Ideal) A (ix2 r q) = A (ix2 M q) := by
  have hf := idx_facts t
  have a0 : win0_0.index t (0 : Fin 2) = t.val := hf.1
  have a1 : win0_0.index t (1 : Fin 2) = 0 := hf.2.1
  show A (((cfg0.win 0).blk t).view.emb (ix2 r q)) = A (ix2 M q)
  refine congrArg A (funext fun a => Fin.ext ?_)
  match a with
  | ⟨0, _⟩ => show win0_0.index t (0 : Fin 2) * 2000 + 1 * r.val = M.val; omega
  | ⟨1, _⟩ => show win0_0.index t (1 : Fin 2) * 128 + 1 * q.val = q.val; omega

/-- So for the array the region finds there. -/
theorem rows0 (c : Dev nD) (t : Fin cfg0.N) (r : Fin 2000) (q : Fin 128) (M : Fin 50000)
    (hM : M.val = t.val * 2000 + r.val) :
    iblk m c 0 t (ix2 r q) = V m c main_v46 (ix2 M q) := by
  unfold iblk
  exact read_rows0 c (V m c (Pipeline.arrRef spec0 0)) t r q M hM

/-- Through the block term window 1 stages at point t, row r of the block is row 2000·t + r of the window's
    array, whatever the array holds. -/
theorem read_rows1 (c : Dev nD) (A : Buf (Elt Ideal) ((c : Thread nD τ).loc main_v47)) (t : Fin cfg0.N)
    (r : Fin 2000) (q : Fin 128) (M : Fin 50000) (hM : M.val = t.val * 2000 + r.val) :
    ((cfg0.win 1).blk t).view.read (Elt Ideal) A (ix2 r q) = A (ix2 M q) := by
  have hf := idx_facts t
  have a0 : win0_1.index t (0 : Fin 2) = t.val := hf.2.2.1
  have a1 : win0_1.index t (1 : Fin 2) = 0 := hf.2.2.2.1
  show A (((cfg0.win 1).blk t).view.emb (ix2 r q)) = A (ix2 M q)
  refine congrArg A (funext fun a => Fin.ext ?_)
  match a with
  | ⟨0, _⟩ => show win0_1.index t (0 : Fin 2) * 2000 + 1 * r.val = M.val; omega
  | ⟨1, _⟩ => show win0_1.index t (1 : Fin 2) * 128 + 1 * q.val = q.val; omega

/-- So for the array the region finds there. -/
theorem rows1 (c : Dev nD) (t : Fin cfg0.N) (r : Fin 2000) (q : Fin 128) (M : Fin 50000)
    (hM : M.val = t.val * 2000 + r.val) :
    iblk m c 1 t (ix2 r q) = V m c main_v47 (ix2 M q) := by
  unfold iblk
  exact read_rows1 c (V m c (Pipeline.arrRef spec0 1)) t r q M hM

/-- Through the block term window 2 stages at point t, row r of the block is row 2000·t + r of the window's
    array, whatever the array holds. -/
theorem read_rows2 (c : Dev nD) (A : Buf (Elt Ideal) ((c : Thread nD τ).loc main_v48)) (t : Fin cfg0.N)
    (r : Fin 2000) (q : Fin 128) (M : Fin 50000) (hM : M.val = t.val * 2000 + r.val) :
    ((cfg0.win 2).blk t).view.read (Elt Ideal) A (ix2 r q) = A (ix2 M q) := by
  have hf := idx_facts t
  have a0 : win0_2.index t (0 : Fin 2) = t.val := hf.2.2.2.2.1
  have a1 : win0_2.index t (1 : Fin 2) = 0 := hf.2.2.2.2.2.1
  show A (((cfg0.win 2).blk t).view.emb (ix2 r q)) = A (ix2 M q)
  refine congrArg A (funext fun a => Fin.ext ?_)
  match a with
  | ⟨0, _⟩ => show win0_2.index t (0 : Fin 2) * 2000 + 1 * r.val = M.val; omega
  | ⟨1, _⟩ => show win0_2.index t (1 : Fin 2) * 128 + 1 * q.val = q.val; omega

/-- So for the array the region finds there. -/
theorem rows2 (c : Dev nD) (t : Fin cfg0.N) (r : Fin 2000) (q : Fin 128) (M : Fin 50000)
    (hM : M.val = t.val * 2000 + r.val) :
    iblk m c 2 t (ix2 r q) = V m c main_v48 (ix2 M q) := by
  unfold iblk
  exact read_rows2 c (V m c (Pipeline.arrRef spec0 2)) t r q M hM

/-- Through the block term window 3 stages at point t, row r of the block is row 2000·t + r of the window's
    array, whatever the array holds. -/
theorem read_rows3 (c : Dev nD) (A : Buf (Elt Ideal) ((c : Thread nD τ).loc main_v49)) (t : Fin cfg0.N)
    (r : Fin 2000) (q : Fin 128) (M : Fin 50000) (hM : M.val = t.val * 2000 + r.val) :
    ((cfg0.win 3).blk t).view.read (Elt Ideal) A (ix2 r q) = A (ix2 M q) := by
  have hf := idx_facts t
  have a0 : win0_3.index t (0 : Fin 2) = t.val := hf.2.2.2.2.2.2.1
  have a1 : win0_3.index t (1 : Fin 2) = 0 := hf.2.2.2.2.2.2.2.1
  show A (((cfg0.win 3).blk t).view.emb (ix2 r q)) = A (ix2 M q)
  refine congrArg A (funext fun a => Fin.ext ?_)
  match a with
  | ⟨0, _⟩ => show win0_3.index t (0 : Fin 2) * 2000 + 1 * r.val = M.val; omega
  | ⟨1, _⟩ => show win0_3.index t (1 : Fin 2) * 128 + 1 * q.val = q.val; omega

/-- So for the array the region finds there. -/
theorem rows3 (c : Dev nD) (t : Fin cfg0.N) (r : Fin 2000) (q : Fin 128) (M : Fin 50000)
    (hM : M.val = t.val * 2000 + r.val) :
    iblk m c 3 t (ix2 r q) = V m c main_v49 (ix2 M q) := by
  unfold iblk
  exact read_rows3 c (V m c (Pipeline.arrRef spec0 3)) t r q M hM

/-- The weights' window stages the whole array at every point. -/
theorem wblk (c : Dev nD) (t : Fin cfg0.N) : iblk m c 4 t = (V m c main_arg2 : S128x32.Idx → EReal) := by
  have hf := idx_facts t
  have a0 : win0_4.index t (0 : Fin 2) = 0 := hf.2.2.2.2.2.2.2.2.1
  have a1 : win0_4.index t (1 : Fin 2) = 0 := hf.2.2.2.2.2.2.2.2.2.1
  funext y
  show V m c main_arg2 (((cfg0.win 4).blk t).view.emb y) = V m c main_arg2 y
  refine congrArg (V m c main_arg2) (funext fun a => Fin.ext ?_)
  match a with
  | ⟨0, _⟩ => show win0_4.index t (0 : Fin 2) * 128 + 1 * (y 0).val = (y 0).val; omega
  | ⟨1, _⟩ => show win0_4.index t (1 : Fin 2) * 32 + 1 * (y 1).val = (y 1).val; omega

/-- So does the bias's. -/
theorem bblk (c : Dev nD) (t : Fin cfg0.N) : iblk m c 5 t = (V m c main_arg3 : S1x1x32.Idx → EReal) := by
  have hf := idx_facts t
  have a0 : win0_5.index t (0 : Fin 3) = 0 := hf.2.2.2.2.2.2.2.2.2.2.1
  have a1 : win0_5.index t (1 : Fin 3) = 0 := hf.2.2.2.2.2.2.2.2.2.2.2.1
  have a2 : win0_5.index t (2 : Fin 3) = 0 := hf.2.2.2.2.2.2.2.2.2.2.2.2.1
  funext y
  show V m c main_arg3 (((cfg0.win 5).blk t).view.emb y) = V m c main_arg3 y
  refine congrArg (V m c main_arg3) (funext fun a => Fin.ext ?_)
  match a with
  | ⟨0, _⟩ => show win0_5.index t (0 : Fin 3) * 1 + 1 * (y 0).val = (y 0).val; omega
  | ⟨1, _⟩ => show win0_5.index t (1 : Fin 3) * 1 + 1 * (y 1).val = (y 1).val; omega
  | ⟨2, _⟩ => show win0_5.index t (2 : Fin 3) * 32 + 1 * (y 2).val = (y 2).val; omega

/-- Point t writes back block t of the dense step of the whole arrays. -/
theorem flushed_eq (c : Dev nD) (t : Fin cfg0.N) :
    (dats m 0 c).flushed 6 t = ((cfg0.win 6).blk t).view.read (Elt Ideal) (G m c) := by
  have hout := out_eq (iblk m c 0 t) (iblk m c 1 t) (iblk m c 2 t) (iblk m c 3 t) (iblk m c 4 t) (iblk m c 5 t)
  rw [flushed6, hout]
  have hf := idx_facts t
  have a60 : win0_6.index t (0 : Fin 3) = 0 := hf.2.2.2.2.2.2.2.2.2.2.2.2.2.1
  have a61 : win0_6.index t (1 : Fin 3) = t.val := hf.2.2.2.2.2.2.2.2.2.2.2.2.2.2.1
  have a62 : win0_6.index t (2 : Fin 3) = 0 := hf.2.2.2.2.2.2.2.2.2.2.2.2.2.2.2
  funext j
  show dense (M := 2000) (iblk m c 0 t) (iblk m c 1 t) (iblk m c 2 t) (iblk m c 3 t) (iblk m c 4 t) (iblk m c 5 t) j
      = G m c (((cfg0.win 6).blk t).view.emb j)
  unfold G
  have hrow : ((((cfg0.win 6).blk t).view.emb j) 1).val = t.val * 2000 + (j 1).val := by
    show win0_6.index t (1 : Fin 3) * 2000 + 1 * (j 1).val = t.val * 2000 + (j 1).val
    omega
  refine dense_rows (M := 50000) (R := 2000) _ _ _ _ _ _ _ _ _ _ _ _ (wblk m c t) (bblk m c t) j _ ?h0 ?h2
    (fun q => rows0 m c t (j 1) q _ hrow) (fun q => rows1 m c t (j 1) q _ hrow)
    (fun q => rows2 m c t (j 1) q _ hrow) (fun q => rows3 m c t (j 1) q _ hrow)
  case h0 => show win0_6.index t (0 : Fin 3) * 4 + 1 * (j 0).val = (j 0).val; omega
  case h2 => show win0_6.index t (2 : Fin 3) * 32 + 1 * (j 2).val = (j 2).val; omega

/-- An index of the result is in point t's block iff each coordinate is in the block's range on its axis. -/
theorem mem_blk (t : Fin cfg0.N) (i : S4x50000x32.Idx) :
    i ∈ ((cfg0.win 6).blk t).view.set ↔ ∀ a : Fin 3, win0_6.index t a * S4x2000x32.size a ≤ (i a).val
      ∧ (i a).val < win0_6.index t a * S4x2000x32.size a + S4x2000x32.size a := by
  show i ∈ ((View.whole main_v50).slice (win0_6.rect t)).set ↔ _
  rw [View.set_slice_whole, Rect.mem_set_unit]
  exact Iff.rfl

/-- Every index of the result is in the block of the point its row belongs to. -/
theorem cover (i : S4x50000x32.Idx) :
    ∃ t : Fin cfg0.N, (cfg0.win 6).flush t = true ∧ i ∈ ((cfg0.win 6).blk t).view.set := by
  have hi0 : (i 0).val < 4 := (i 0).isLt
  have hi1 : (i 1).val < 50000 := (i 1).isLt
  have hi2 : (i 2).val < 32 := (i 2).isLt
  obtain ⟨t, ht⟩ := idx_onto ⟨(i 1).val / 2000, by omega⟩
  have q0 : win0_6.index t (0 : Fin 3) = 0 := congrFun ht 0
  have q1 : win0_6.index t (1 : Fin 3) = (i 1).val / 2000 := congrFun ht 1
  have q2 : win0_6.index t (2 : Fin 3) = 0 := congrFun ht 2
  refine ⟨t, flush0_6 t, ?_⟩
  rw [mem_blk]
  intro a
  match a with
  | ⟨0, _⟩ =>
    show win0_6.index t (0 : Fin 3) * 4 ≤ (i 0).val ∧ (i 0).val < win0_6.index t (0 : Fin 3) * 4 + 4
    omega
  | ⟨1, _⟩ =>
    show win0_6.index t (1 : Fin 3) * 2000 ≤ (i 1).val ∧ (i 1).val < win0_6.index t (1 : Fin 3) * 2000 + 2000
    omega
  | ⟨2, _⟩ =>
    show win0_6.index t (2 : Fin 3) * 32 ≤ (i 2).val ∧ (i 2).val < win0_6.index t (2 : Fin 3) * 32 + 32
    omega

/-- The result array after the run. -/
theorem final (c : Dev nD) : (dats m 0 c).arrAt 6 cfg0.N = G m c :=
  (dats m 0 c).arrAt_eq_of_cover 6 (G m c) (fun t _ => flushed_eq m c t) cover

end Cert.KernelIdeal.Whole

end
-- ==== Proof.ChebRef.lean ====
/-
  The reference's result is the dense step of its four Chebyshev terms, each flattened to rows of 128.

  The reference stacks the four terms [50000, 32, 4] (node, feature, batch entry) along a new leading axis, moves
  the batch entry to the front and the term index to the back — [4, 50000, 32, 4] as (entry, node, feature, term) —,
  reshapes to [200000, 128] (row n·50000 + m, column 4·f + k), multiplies by the weights, reshapes back to
  [4, 50000, 32], adds the bias and takes the maximum with zero. At (n, m, c) that is

      max ( Σ_j X_{j mod 4} (m, j / 4, n) · W (j, c) + b (0, 0, c), 0 ),

  and X_k (m, f, n) is column 4·f + n of row m of X_k flattened to [50000, 128]: the dense step of the
  flattened terms. The terms themselves (a transpose and three sparse products) are never opened.
-/
import proofs.«156339_j62955630625379_2_alg».proof.Proof.Gen.ReferenceIdeal.Read
import proofs.«156339_j62955630625379_2_alg».proof.Proof.ChebLayout

noncomputable section

namespace Cert.ReferenceIdeal.RefValue

open Cert.ReferenceIdeal Cert.ReferenceIdeal.Read Cert.Cheb
open Idealize.ShloMosaic Idealize.ShloMosaic.ValueIdx

/-- A term [50000, 32, 4] can be flattened to rows of 128. -/
theorem flat : S50000x32x4.ShapeCasts (⟨2, ![50000, 128]⟩ : Shape) := by decide

/-- Four [1, M, 32, 4] arrays stacked along the leading axis: (k, m, f, n) is array k at (0, m, f, n). -/
theorem stack4_apply {α : Type} {M : Nat} (p0 p1 p2 p3 : (⟨4, ![1, M, 32, 4]⟩ : Shape).Idx → α)
    (h : Shape.Concatenates [(⟨4, ![1, M, 32, 4]⟩ : Shape), ⟨4, ![1, M, 32, 4]⟩, ⟨4, ![1, M, 32, 4]⟩, ⟨4, ![1, M, 32, 4]⟩]
      ⟨4, ![4, M, 32, 4]⟩ 0) (k : Fin 4) (m : Fin M) (f : Fin 32) (n : Fin 4) :
    concatenate ⟨4, ![4, M, 32, 4]⟩ 0 [⟨⟨4, ![1, M, 32, 4]⟩, p0⟩, ⟨⟨4, ![1, M, 32, 4]⟩, p1⟩, ⟨⟨4, ![1, M, 32, 4]⟩, p2⟩,
        ⟨⟨4, ![1, M, 32, 4]⟩, p3⟩] h (ix4 k m f n)
      = pick k.val p0 p1 p2 p3 (ix4 (⟨0, Nat.one_pos⟩ : Fin 1) m f n) := by
  have hi : ∀ b : Fin 4, b.cast (rfl : (4 : Nat) = 4) ≠ (0 : Fin 4) →
      ((ix4 (⟨0, Nat.one_pos⟩ : Fin 1) m f n : (⟨4, ![1, M, 32, 4]⟩ : Shape).Idx) b).val
        = ((ix4 k m f n : (⟨4, ![4, M, 32, 4]⟩ : Shape).Idx) (b.cast rfl)).val := fun b hb => by
    match b with
    | ⟨0, _⟩ => exact absurd rfl hb
    | ⟨1, _⟩ => rfl
    | ⟨2, _⟩ => rfl
    | ⟨3, _⟩ => rfl
  match k with
  | ⟨0, _⟩ =>
    exact concatenate_apply_piece (t := ⟨4, ![4, M, 32, 4]⟩) (0 : Fin 4)
      [⟨⟨4, ![1, M, 32, 4]⟩, p0⟩, ⟨⟨4, ![1, M, 32, 4]⟩, p1⟩, ⟨⟨4, ![1, M, 32, 4]⟩, p2⟩, ⟨⟨4, ![1, M, 32, 4]⟩, p3⟩]
      h _ 0 (by show (0 : Nat) < 4; decide) ⟨4, ![1, M, 32, 4]⟩ p0 rfl rfl 0 rfl _ hi rfl
  | ⟨1, _⟩ =>
    exact concatenate_apply_piece (t := ⟨4, ![4, M, 32, 4]⟩) (0 : Fin 4)
      [⟨⟨4, ![1, M, 32, 4]⟩, p0⟩, ⟨⟨4, ![1, M, 32, 4]⟩, p1⟩, ⟨⟨4, ![1, M, 32, 4]⟩, p2⟩, ⟨⟨4, ![1, M, 32, 4]⟩, p3⟩]
      h _ 1 (by show (1 : Nat) < 4; decide) ⟨4, ![1, M, 32, 4]⟩ p1 rfl rfl 1 rfl _ hi rfl
  | ⟨2, _⟩ =>
    exact concatenate_apply_piece (t := ⟨4, ![4, M, 32, 4]⟩) (0 : Fin 4)
      [⟨⟨4, ![1, M, 32, 4]⟩, p0⟩, ⟨⟨4, ![1, M, 32, 4]⟩, p1⟩, ⟨⟨4, ![1, M, 32, 4]⟩, p2⟩, ⟨⟨4, ![1, M, 32, 4]⟩, p3⟩]
      h _ 2 (by show (2 : Nat) < 4; decide) ⟨4, ![1, M, 32, 4]⟩ p2 rfl rfl 2 rfl _ hi rfl
  | ⟨3, _⟩ =>
    exact concatenate_apply_piece (t := ⟨4, ![4, M, 32, 4]⟩) (0 : Fin 4)
      [⟨⟨4, ![1, M, 32, 4]⟩, p0⟩, ⟨⟨4, ![1, M, 32, 4]⟩, p1⟩, ⟨⟨4, ![1, M, 32, 4]⟩, p2⟩, ⟨⟨4, ![1, M, 32, 4]⟩, p3⟩]
      h _ 3 (by show (3 : Nat) < 4; decide) ⟨4, ![1, M, 32, 4]⟩ p3 rfl rfl 3 rfl _ hi rfl

/-- A term at (m, j / 4, n) is its flattening at row m, column 4·(j / 4) + n. -/
theorem term_flat (X : S50000x32x4.Idx → EReal) (n : Fin 4) (m : Fin 50000) (j : Fin 128) :
    X (ix3 m (⟨j.val / 4, by have := j.isLt; omega⟩ : Fin 32) n)
      = shapeCast (⟨2, ![50000, 128]⟩ : Shape) X flat (ix2 m (col n j)) := by
  refine Eq.trans ?_ (flatten_apply X flat m (col n j)).symm
  refine congrArg X (funext fun a => Fin.ext ?_)
  have hj := j.isLt
  have hn := n.isLt
  match a with
  | ⟨0, _⟩ => rfl
  | ⟨1, _⟩ => show j.val / 4 = (j.val / 4 * 4 + n.val) / 4; omega
  | ⟨2, _⟩ => show n.val = (j.val / 4 * 4 + n.val) % 4; omega

/-- The reference's last stage is the dense step of its four terms flattened. -/
theorem result_eq (x0 : (⟨S4x50000x32, .f32⟩ : BufTy).Contents (Elt Ideal)) (x1 : (⟨S800000, .f32⟩ : BufTy).Contents (Elt Ideal))
    (x2 : (⟨S128x32, .f32⟩ : BufTy).Contents (Elt Ideal)) (x3 : (⟨S1x1x32, .f32⟩ : BufTy).Contents (Elt Ideal))
    (x4 x5 : (⟨S800000, .i32⟩ : BufTy).Contents (Elt Ideal)) :
    val_main_v57 (F := Ideal) x0 x1 x2 x3 x4 x5
      = dense (M := 50000)
          (shapeCast (⟨2, ![50000, 128]⟩ : Shape) (val_main_v0 (F := Ideal) x0) flat)
          (shapeCast (⟨2, ![50000, 128]⟩ : Shape) (val_main_v13 (F := Ideal) x0 x1 x4 x5) flat)
          (shapeCast (⟨2, ![50000, 128]⟩ : Shape) (val_main_v29 (F := Ideal) x0 x1 x4 x5) flat)
          (shapeCast (⟨2, ![50000, 128]⟩ : Shape) (val_main_v45 (F := Ideal) x0 x1 x4 x5) flat) x2 x3 := by
  funext i
  obtain ⟨n, m, c, rfl⟩ : ∃ (n : Fin 4) (m : Fin 50000) (c : Fin 32), i = ix3 n m c := ⟨i 0, i 1, i 2, eq_ix3 i⟩
  have hn := n.isLt
  have hm := m.isLt
  have hc := c.isLt
  rw [dense_ix3]
  unfold layerAt
  rw [val_main_v57_apply, val_main_v56_apply, val_main_call0_v0_apply, val_main_call0_cst_apply, val_main_v55_apply,
    val_main_v54_apply]
  have e54 : idx_main_v54 (ix3 n m c) = ix2 (⟨n.val * 50000 + m.val, by omega⟩ : Fin 200000) c :=
    funext fun a => Fin.ext (by
      match a with
      | ⟨0, _⟩ => show ((n.val * 50000 + m.val) * 32 + c.val) / 32 = n.val * 50000 + m.val; omega
      | ⟨1, _⟩ => show ((n.val * 50000 + m.val) * 32 + c.val) % 32 = c.val; omega)
  have e55 : idx_main_v55 (ix3 n m c) = ix3 (⟨0, Nat.one_pos⟩ : Fin 1) (⟨0, Nat.one_pos⟩ : Fin 1) c :=
    funext fun a => by
      match a with
      | ⟨0, _⟩ => rfl
      | ⟨1, _⟩ => rfl
      | ⟨2, _⟩ => rfl
  rw [e54, e55, val_main_v53_apply]
  simp only [Ideal.maximumf_def, Ideal.addf_def, Ideal.ofBits_def]
  refine congrArg₂ max (congrArg₂ (· + ·) (Finset.sum_congr rfl fun j _ => ?_) rfl) rfl
  have hj := j.isLt
  refine congrArg₂ (· * ·) ?_ (congrArg x2 (funext fun a => by
    match a with
    | ⟨0, _⟩ => rfl
    | ⟨1, _⟩ => rfl))
  rw [val_main_v52_apply, val_main_v51_apply]
  have e : idx_main_v51 (idx_main_v52 (lidx_main_v53 (ix2 (⟨n.val * 50000 + m.val, by omega⟩ : Fin 200000) c) j))
      = ix4 (⟨j.val % 4, by omega⟩ : Fin 4) m (⟨j.val / 4, by omega⟩ : Fin 32) n :=
    funext fun a => Fin.ext (by
      match a with
      | ⟨0, _⟩ => show ((n.val * 50000 + m.val) * 128 + j.val) % 4 = j.val % 4; omega
      | ⟨1, _⟩ => show ((n.val * 50000 + m.val) * 128 + j.val) / 128 % 50000 = m.val; omega
      | ⟨2, _⟩ => show ((n.val * 50000 + m.val) * 128 + j.val) / 4 % 32 = j.val / 4; omega
      | ⟨3, _⟩ => show ((n.val * 50000 + m.val) * 128 + j.val) / 6400000 = n.val; omega)
  rw [e]
  unfold val_main_v50
  refine (stack4_apply _ _ _ _ _ (⟨j.val % 4, by omega⟩ : Fin 4) m (⟨j.val / 4, by omega⟩ : Fin 32) n).trans ?_
  rw [pick_apply, pick_apply]
  have e4 : ∀ q : S1x50000x32x4.Idx → S50000x32x4.Idx,
      (∀ y, q y = fun a => match a with
        | ⟨0, _⟩ => ⟨(y 1).val, (y 1).isLt⟩
        | ⟨1, _⟩ => ⟨(y 2).val, (y 2).isLt⟩
        | ⟨2, _⟩ => ⟨(y 3).val, (y 3).isLt⟩) →
      q (ix4 (⟨0, Nat.one_pos⟩ : Fin 1) m (⟨j.val / 4, by omega⟩ : Fin 32) n)
        = ix3 m (⟨j.val / 4, by omega⟩ : Fin 32) n := fun q hq => by
    rw [hq]
    funext a
    match a with
    | ⟨0, _⟩ => rfl
    | ⟨1, _⟩ => rfl
    | ⟨2, _⟩ => rfl
  refine pick_congr _ ?_ ?_ ?_ ?_
  · rw [val_main_v46_apply, e4 idx_main_v46 (fun _ => rfl)]
    exact term_flat _ n m j
  · rw [val_main_v47_apply, e4 idx_main_v47 (fun _ => rfl)]
    exact term_flat _ n m j
  · rw [val_main_v48_apply, e4 idx_main_v48 (fun _ => rfl)]
    exact term_flat _ n m j
  · rw [val_main_v49_apply, e4 idx_main_v49 (fun _ => rfl)]
    exact term_flat _ n m j

end Cert.ReferenceIdeal.RefValue

end
-- ==== Proof.ChebHost.lean ====
/-
  The arrays the term windows stage are the reference's four Chebyshev terms, flattened to rows of 128.

  Before the region the kernel's program computes the terms on the host by the same operations, with the same
  literals, as the reference: a transpose of the input to (node, feature, batch entry); then three times, gather
  the rows the column indices name, scale by the Laplacian's values, scatter-add into the rows the row indices
  name (for the second and third time doubled, less the term before last); and it reshapes each term
  [50000, 32, 4] to [50000, 128]. Read off the program's host operations, each staged array is the reshape of the
  very term the reference's program names: the two texts are one term, and it is never opened.
-/
import proofs.«156339_j62955630625379_2_alg».proof.Proof.Gen.KernelIdeal.Frame
import proofs.«156339_j62955630625379_2_alg».proof.Proof.ChebRef

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The first staged array: the input transposed to (node, feature, batch entry), flattened. -/
theorem v46_eq (c : Dev nD) :
    (V m c main_v46 : S50000x128.Idx → EReal)
      = shapeCast (⟨2, ![50000, 128]⟩ : Shape)
          (Cert.ReferenceIdeal.Read.val_main_v0 (F := Ideal) (m ((c : Thread nD τ).loc main_arg0)))
          Cert.ReferenceIdeal.RefValue.flat := by
  dsimp only [V, hostOps0]
  after_results_simp <;> rfl

/-- The second: the Laplacian applied once. -/
theorem v47_eq (c : Dev nD) :
    (V m c main_v47 : S50000x128.Idx → EReal)
      = shapeCast (⟨2, ![50000, 128]⟩ : Shape)
          (Cert.ReferenceIdeal.Read.val_main_v13 (F := Ideal) (m ((c : Thread nD τ).loc main_arg0)) (m ((c : Thread nD τ).loc main_arg1)) (m ((c : Thread nD τ).loc main_arg4)) (m ((c : Thread nD τ).loc main_arg5)))
          Cert.ReferenceIdeal.RefValue.flat := by
  dsimp only [V, hostOps0]
  after_results_simp <;> rfl

/-- The third: twice the Laplacian of the second, less the first. -/
theorem v48_eq (c : Dev nD) :
    (V m c main_v48 : S50000x128.Idx → EReal)
      = shapeCast (⟨2, ![50000, 128]⟩ : Shape)
          (Cert.ReferenceIdeal.Read.val_main_v29 (F := Ideal) (m ((c : Thread nD τ).loc main_arg0)) (m ((c : Thread nD τ).loc main_arg1)) (m ((c : Thread nD τ).loc main_arg4)) (m ((c : Thread nD τ).loc main_arg5)))
          Cert.ReferenceIdeal.RefValue.flat := by
  dsimp only [V, hostOps0]
  after_results_simp <;> rfl

/-- The fourth: twice the Laplacian of the third, less the second. -/
theorem v49_eq (c : Dev nD) :
    (V m c main_v49 : S50000x128.Idx → EReal)
      = shapeCast (⟨2, ![50000, 128]⟩ : Shape)
          (Cert.ReferenceIdeal.Read.val_main_v45 (F := Ideal) (m ((c : Thread nD τ).loc main_arg0)) (m ((c : Thread nD τ).loc main_arg1)) (m ((c : Thread nD τ).loc main_arg4)) (m ((c : Thread nD τ).loc main_arg5)))
          Cert.ReferenceIdeal.RefValue.flat := by
  dsimp only [V, hostOps0]
  after_results_simp <;> rfl

end Cert.KernelIdeal.Host

end
-- ==== Proof.lean ====
/-
  A Chebyshev graph convolution of order 4: the kernel against its jnp reference, equal on the extended reals.

  Both programs compute the four Chebyshev terms of the input on the host — T_0 the input transposed to
  (node, feature, batch entry), T_1 = L T_0, T_2 = 2 L T_1 − T_0, T_3 = 2 L T_2 − T_1, the sparse Laplacian L
  applied by a gather, a scaling and a scatter-add — by the same operations with the same literals. The dense
  step that follows, out (n, m, c) = max ( Σ_{f, k} T_k (m, f, n) · W (4·f + k, c) + b (c), 0 ), is where they
  differ in form only: the reference stacks and transposes the terms into one [200000, 128] matrix and makes one
  product; the kernel flattens each term to rows of 128, and at each of 25 grid points takes a block of 2000 rows,
  regroups it, and makes one [2000, 128] by [128, 32] product per batch entry (through bf16, which at the ideal
  values is the identity). Index by index both are the same sum of the same 128 products in the same order, so
  no property of the inputs is used: the precondition is never opened.

  The frames of the two kernel programs and the kernel's run with its output array named are the generated ones;
  the reference's run and its operations read at an index are generated too. Written here: the dense step as one
  function (ChebSpec), the re-layings read at an index (ChebLayout), the body's output block (ChebBody), the
  blocks tiling the result (ChebArray), the staged arrays as the reference's terms (ChebHost), the reference's
  last stage as the same function (ChebRef), and the assembly below. The idealization rewrote nothing, so
  `preserves` has nothing to state.
-/
import proofs.«156339_j62955630625379_2_alg».proof.Defs
import proofs.«156339_j62955630625379_2_alg».proof.Proof.Gen.Kernel
import proofs.«156339_j62955630625379_2_alg».proof.Proof.Gen.Kernel.Skeleton
import proofs.«156339_j62955630625379_2_alg».proof.Proof.Gen.Kernel.Launch
import proofs.«156339_j62955630625379_2_alg».proof.Proof.Gen.Kernel.Points
import proofs.«156339_j62955630625379_2_alg».proof.Proof.Gen.Kernel.Frame
import proofs.«156339_j62955630625379_2_alg».proof.Proof.Gen.KernelIdeal
import proofs.«156339_j62955630625379_2_alg».proof.Proof.Gen.KernelIdeal.Skeleton
import proofs.«156339_j62955630625379_2_alg».proof.Proof.Gen.KernelIdeal.Launch
import proofs.«156339_j62955630625379_2_alg».proof.Proof.Gen.KernelIdeal.Points
import proofs.«156339_j62955630625379_2_alg».proof.Proof.Gen.KernelIdeal.Frame
import proofs.«156339_j62955630625379_2_alg».proof.Proof.Gen.ReferenceIdeal
import proofs.«156339_j62955630625379_2_alg».proof.Proof.Gen.Pre_finite_inputs
import proofs.«156339_j62955630625379_2_alg».proof.Proof.Gen.KernelIdeal.Value
import proofs.«156339_j62955630625379_2_alg».proof.Proof.Gen.ReferenceIdeal.Run
import proofs.«156339_j62955630625379_2_alg».proof.Proof.Gen.ReferenceIdeal.Read
import proofs.«156339_j62955630625379_2_alg».proof.Proof.ChebArray
import proofs.«156339_j62955630625379_2_alg».proof.Proof.ChebHost
import proofs.«156339_j62955630625379_2_alg».proof.Proof.ChebRef
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the dense step of the four flattened Chebyshev terms of the arguments: the kernel's
    result array block by block (the 25 blocks tile it), the reference's last stage index by index. -/
theorem algebraic : Cert.algebraic_KernelIdeal_ReferenceIdeal := by
  intro m ρ m' ρ' _ hagree
  refine ⟨fun c => Cert.KernelIdeal.Whole.G m c, ?_, ?_⟩
  · exact (θ_run Cert.KernelIdeal.defs _ _).mono
      (fun r h c => ⟨(h c).1.trans (Cert.KernelIdeal.Whole.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [Cert.ReferenceIdeal.Read.val_main_v57_eq, Cert.ReferenceIdeal.RefValue.result_eq, h0, h1, h2, h3, h4, h5]
    show _ = Cert.KernelIdeal.Whole.G m c
    unfold Cert.KernelIdeal.Whole.G
    rw [Cert.KernelIdeal.Host.v46_eq, Cert.KernelIdeal.Host.v47_eq, Cert.KernelIdeal.Host.v48_eq,
      Cert.KernelIdeal.Host.v49_eq, Cert.KernelIdeal.Gen.V_main_arg2, Cert.KernelIdeal.Gen.V_main_arg3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
